-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x2048 .f32) (main_arg12 : FVec F S1024 .f32) (main_arg13 : FVec F S1024 .f32) (main_arg14 : FVec F S1024 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x2048 .f32) (main_arg10 : FVec F S1024x2048 .f32) (main_arg11 : FVec F S1024x2048 .f32) (main_arg12 : FVec F S1024 .f32) (main_arg13 : FVec F S1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024x2048 .f32 := Host.absf main_arg10
  let main_cst_18 : FVec F S_ .f32 := constant S_ .f32 0x7F800000#32
  let main_v50 : FVec F S1024x2048 .f32 := broadcastInDim S1024x2048 ![] bcast_S_S1024x2048 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x2048 .f32) (main_arg10 : FVec F S1024x2048 .f32) (main_arg11 : FVec F S1024x2048 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x2048 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x2048 .f32) (main_arg10 : FVec F S1024x2048 .f32) (main_arg11 : FVec F S1024x2048 .f32) (main_arg12 : FVec F S1024 .f32) (main_arg13 : FVec F S1024 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩
abbrev S1024 : Shape := ⟨1, ![1024]⟩
abbrev S3072x1024 : Shape := ⟨2, ![3072, 1024]⟩
abbrev S3072x2048 : Shape := ⟨2, ![3072, 2048]⟩
abbrev S2048x1024 : Shape := ⟨2, ![2048, 1024]⟩
abbrev S3072 : Shape := ⟨1, ![3072]⟩
abbrev S1x3072 : Shape := ⟨2, ![1, 3072]⟩
abbrev S256x1024 : Shape := ⟨2, ![256, 1024]⟩
abbrev S256x2048 : Shape := ⟨2, ![256, 2048]⟩
abbrev S256x3072 : Shape := ⟨2, ![256, 3072]⟩

abbrev nBuf : Space → Nat
  | .hbm => 25
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S3072x1024, .f32⟩
  | .hbm, ⟨16, _⟩ => ⟨S3072x1024, .bf16⟩
  | .hbm, ⟨17, _⟩ => ⟨S3072x2048, .f32⟩
  | .hbm, ⟨18, _⟩ => ⟨S3072x2048, .bf16⟩
  | .hbm, ⟨19, _⟩ => ⟨S2048x1024, .f32⟩
  | .hbm, ⟨20, _⟩ => ⟨S2048x1024, .bf16⟩
  | .hbm, ⟨21, _⟩ => ⟨S1024x1024, .bf16⟩
  | .hbm, ⟨22, _⟩ => ⟨S3072, .f32⟩
  | .hbm, ⟨23, _⟩ => ⟨S1x3072, .f32⟩
  | .hbm, ⟨24, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S3072x1024, .bf16⟩
  | .local _ .vmem, ⟨7, _⟩ => ⟨S3072x2048, .bf16⟩
  | .local _ .vmem, ⟨8, _⟩ => ⟨S2048x1024, .bf16⟩
  | .local _ .vmem, ⟨9, _⟩ => ⟨S1024x1024, .bf16⟩
  | .local _ .vmem, ⟨10, _⟩ => ⟨S1x3072, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024x2048_S1024x2048_S1024x2048_S3072x2048_d0 : Shape.Concatenates [S1024x2048, S1024x2048, S1024x2048] S3072x2048 0
  concatenates_S1024x1024_S1024x1024_S2048x1024_d0 : Shape.Concatenates [S1024x1024, S1024x1024] S2048x1024 0
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072x2048_S3072x2048_0_0 : ∀ a, (![0, 0] : Fin 2 → Nat) a + S3072x2048.size a ≤ S3072x2048.size a
  h_S3072x2048 : 0 < S3072x2048.numel
  shapeCasts_S3072x2048_S3072x2048 : S3072x2048.ShapeCasts S3072x2048
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S256x3072_o0_0_S256x1024 : S256x3072.Slices ![0, 0] S256x1024
  slices_S256x2048_o0_0_S256x1024 : S256x2048.Slices ![0, 0] S256x1024
  slices_S256x3072_o0_1024_S256x1024 : S256x3072.Slices ![0, 1024] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x3072_o0_2048_S256x1024 : S256x3072.Slices ![0, 2048] S256x1024
  dot_S256x1024_S3072x1024_S256x3072_1_1_0_0_n_n_wf : DotDims.WF S256x1024 S3072x1024 S256x3072 [1] [1] [0] [0] [] []
  dot_S256x2048_S3072x2048_S256x3072_1_1_0_0_n_n_wf : DotDims.WF S256x2048 S3072x2048 S256x3072 [1] [1] [0] [0] [] []
  dot_S256x1024_S2048x1024_S256x2048_1_1_0_0_n_n_wf : DotDims.WF S256x1024 S2048x1024 S256x2048 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .bf16 = 32 ∨ (Rect.block (s := S3072x1024) S3072x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x2048.size a ≤ S3072x2048.size a
  hwx0_4 : ∀ i : grid0.Coords, EltTy.bits .bf16 = 32 ∨ (Rect.block (s := S3072x2048) S3072x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S256x2048_S3072x2048_S256x3072_1_1_0_0_n_n : DotDims S256x2048 S3072x2048 S256x3072 where
  lhsContracting := [1]
  rhsContracting := [1]
  lhsNonContracting := [0]
  rhsNonContracting := [0]
  lhsBatch := []
  rhsBatch := []
  wf := dot_S256x2048_S3072x2048_S256x3072_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3072x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S2048x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S1024x1024, .f32⟩
  | .hbm, ⟨35, _⟩ => ⟨S8192x1024, .f32⟩
  | .hbm, ⟨36, _⟩ => ⟨S1024x1024, .f32⟩
  | .hbm, ⟨37, _⟩ => ⟨S8192x1024, .f32⟩
  | .hbm, ⟨38, _⟩ => ⟨S8192x1024, .f32⟩
  | .hbm, ⟨39, _⟩ => ⟨S2048x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S1024x1024, .f32⟩
  | .hbm, ⟨54, _⟩ => ⟨S8192x1024, .f32⟩
  | .hbm, ⟨55, _⟩ => ⟨S8192x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S2048x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.FrameKernel.lean ====
/-
  The frame of `Kernel`: every weakly fair execution of @main terminates, nothing faults, and the fifteen
  argument arrays end as they were launched.

  @main is nine host operations (four concatenations of weight or bias arrays, four changes of float format,
  one reshape), none of which writes an argument, followed by ONE pipelined call over a grid of 32 points. At a
  point the body loads its eight input blocks whole, computes, and stores one whole output block; it keeps
  nothing between points. So after the body at point `t` every input's staging buffer still holds its block and
  the output's holds `outBlock` of the eight input blocks: that is the proof data of the launch, the body's
  triple is one symbolic run of the body, and the launch theorem for a pipeline that owns nothing gives the run.
-/
import proofs.«115858_j7550552506831_2_alg».proof.Proof.Gen.Kernel.Launch
import proofs.«115858_j7550552506831_2_alg».proof.Proof.Gen.Kernel.Skeleton
import proofs.«115858_j7550552506831_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch memory after the nine host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or its
    block index has not moved since it was fetched, for any proof data whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- From a run that ends with every array of the pipeline at what the proof data computes and every other
    unscoped buffer as the call found it: the three streamed arguments are inputs the pipeline only reads, the
    twelve others no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: every load and the one store take a whole buffer -/

abbrev rect0 : Rect S256x1024 := Rect.unit (s := S256x1024) ![0, 0] S256x1024.size inb_S256x1024_S256x1024_0_0
abbrev rect1 : Rect S256x1024 := Rect.unit (s := S256x1024) ![0, 0] S256x1024.size inb_S256x1024_S256x1024_0_0
abbrev rect2 : Rect S256x2048 := Rect.unit (s := S256x2048) ![0, 0] S256x2048.size inb_S256x2048_S256x2048_0_0
abbrev rect3 : Rect S3072x1024 := Rect.unit (s := S3072x1024) ![0, 0] S3072x1024.size inb_S3072x1024_S3072x1024_0_0
abbrev rect4 : Rect S3072x2048 := Rect.unit (s := S3072x2048) ![0, 0] S3072x2048.size inb_S3072x2048_S3072x2048_0_0
abbrev rect5 : Rect S2048x1024 := Rect.unit (s := S2048x1024) ![0, 0] S2048x1024.size inb_S2048x1024_S2048x1024_0_0
abbrev rect6 : Rect S1024x1024 := Rect.unit (s := S1024x1024) ![0, 0] S1024x1024.size inb_S1024x1024_S1024x1024_0_0
abbrev rect7 : Rect S1x3072 := Rect.unit (s := S1x3072) ![0, 0] S1x3072.size inb_S1x3072_S1x3072_0_0
abbrev rect8 : Rect S256x1024 := Rect.unit (s := S256x1024) ![0, 0] S256x1024.size inb_S256x1024_S256x1024_0_0

/-! ## What the body leaves in the output's buffer -/

/-- The output's staging buffer after the body, from the eight input blocks: one store of the whole block, its
    value the body's arithmetic on the loaded blocks. -/
def outBlock (x0 : Vec F S256x1024 .f32) (x1 : Vec F S256x1024 .f32) (x2 : Vec F S256x2048 .f32) (x3 : Vec F S3072x1024 .bf16) (x4 : Vec F S3072x2048 .bf16) (x5 : Vec F S2048x1024 .bf16) (x6 : Vec F S1024x1024 .bf16) (x7 : Vec F S1x3072 .f32) : Vec F S256x1024 .f32 :=
  View.canon [⟨rect8, k0_pay1 (View.ld x1 rect1)
    (k0_pay4 (View.ld x0 rect0) (View.ld x1 rect1) (View.ld x2 rect2) (View.ld x3 rect3) (View.ld x4 rect4) (View.ld x7 rect7) (View.ld x5 rect5))
    (k0_pay5 (View.ld x0 rect0) (View.ld x1 rect1) (View.ld x2 rect2) (View.ld x3 rect3) (View.ld x4 rect4) (View.ld x7 rect7) (View.ld x5 rect5) (View.ld x6 rect6))
    (k0_pay6 (F := F))⟩]

/-- The one store covers the buffer. -/
theorem cover_out (p0 : Vec F S256x1024 .f32) (y : S256x1024.Idx) :
    ∃ pc ∈ ([⟨rect8, p0⟩] : List (View.Piece (Elt F) S256x1024 .f32)), y ∈ pc.1.set :=
  View.cover_of_tiled [⟨rect8, p0⟩] S256x1024.size (by rfl) y

/-! ## The body's triple -/

set_option maxHeartbeats 4000000 in
/-- On whole staging memrefs, the inputs' at contents `xW` and the output's at anything, the body runs to the
    continuation with the inputs' as they were and the output's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S3072x1024 .bf16) (harg4 : arg4.IsWhole) (arg5 : Memref sig .tc .vmem S3072x2048 .bf16) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1x3072 .f32) (harg8 : arg8.IsWhole) (arg9 : Memref sig .tc .vmem S256x1024 .f32) (harg9 : arg9.IsWhole)
    (x0 : Vec F S256x1024 .f32) (x1 : Vec F S256x1024 .f32) (x2 : Vec F S256x2048 .f32) (x3 : Vec F S3072x1024 .bf16) (x4 : Vec F S3072x2048 .bf16) (x5 : Vec F S2048x1024 .bf16) (x6 : Vec F S1024x1024 .bf16) (x7 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__decoder_cell_kernel i arg1 harg1 arg2 harg2 arg3 harg3 arg4 harg4 arg5 harg5 arg6 harg6 arg7 harg7 arg8 harg8 arg9 harg9) K := by
  simp only [cc0__decoder_cell_kernel_eq_skeleton]; unfold cc0__decoder_cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The pipeline's proof data -/

/-- The arrays as the call finds them; after the body at point `t` each input's buffer at its block and the
    output's at `outBlock` of the input blocks; the pipeline owns nothing beyond its windows, owes nothing, and
    holds full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so the body's triple applies; what the
    pipeline owns besides passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has each array of the pipeline at what the proof data computes and every other unscoped buffer as the call
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frame

end
-- ==== Proof.FrameIdeal.lean ====
/-
  The frame of `KernelIdeal`: every weakly fair execution of @main terminates, nothing faults, and the fifteen
  argument arrays end as they were launched.

  @main is nine host operations (four concatenations of weight or bias arrays, four changes of float format,
  one reshape), none of which writes an argument, followed by ONE pipelined call over a grid of 32 points. At a
  point the body loads its eight input blocks whole, computes, and stores one whole output block; it keeps
  nothing between points. So after the body at point `t` every input's staging buffer still holds its block and
  the output's holds `outBlock` of the eight input blocks: that is the proof data of the launch, the body's
  triple is one symbolic run of the body, and the launch theorem for a pipeline that owns nothing gives the run.
-/
import proofs.«115858_j7550552506831_2_alg».proof.Proof.Gen.KernelIdeal.Launch
import proofs.«115858_j7550552506831_2_alg».proof.Proof.Gen.KernelIdeal.Skeleton
import proofs.«115858_j7550552506831_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch memory after the nine host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or its
    block index has not moved since it was fetched, for any proof data whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- From a run that ends with every array of the pipeline at what the proof data computes and every other
    unscoped buffer as the call found it: the three streamed arguments are inputs the pipeline only reads, the
    twelve others no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: every load and the one store take a whole buffer -/

abbrev rect0 : Rect S256x1024 := Rect.unit (s := S256x1024) ![0, 0] S256x1024.size inb_S256x1024_S256x1024_0_0
abbrev rect1 : Rect S256x1024 := Rect.unit (s := S256x1024) ![0, 0] S256x1024.size inb_S256x1024_S256x1024_0_0
abbrev rect2 : Rect S256x2048 := Rect.unit (s := S256x2048) ![0, 0] S256x2048.size inb_S256x2048_S256x2048_0_0
abbrev rect3 : Rect S3072x1024 := Rect.unit (s := S3072x1024) ![0, 0] S3072x1024.size inb_S3072x1024_S3072x1024_0_0
abbrev rect4 : Rect S3072x2048 := Rect.unit (s := S3072x2048) ![0, 0] S3072x2048.size inb_S3072x2048_S3072x2048_0_0
abbrev rect5 : Rect S2048x1024 := Rect.unit (s := S2048x1024) ![0, 0] S2048x1024.size inb_S2048x1024_S2048x1024_0_0
abbrev rect6 : Rect S1024x1024 := Rect.unit (s := S1024x1024) ![0, 0] S1024x1024.size inb_S1024x1024_S1024x1024_0_0
abbrev rect7 : Rect S1x3072 := Rect.unit (s := S1x3072) ![0, 0] S1x3072.size inb_S1x3072_S1x3072_0_0
abbrev rect8 : Rect S256x1024 := Rect.unit (s := S256x1024) ![0, 0] S256x1024.size inb_S256x1024_S256x1024_0_0

/-! ## What the body leaves in the output's buffer -/

/-- The output's staging buffer after the body, from the eight input blocks: one store of the whole block, its
    value the body's arithmetic on the loaded blocks. -/
def outBlock (x0 : Vec F S256x1024 .f32) (x1 : Vec F S256x1024 .f32) (x2 : Vec F S256x2048 .f32) (x3 : Vec F S3072x1024 .bf16) (x4 : Vec F S3072x2048 .bf16) (x5 : Vec F S2048x1024 .bf16) (x6 : Vec F S1024x1024 .bf16) (x7 : Vec F S1x3072 .f32) : Vec F S256x1024 .f32 :=
  View.canon [⟨rect8, k0_pay1 (View.ld x1 rect1)
    (k0_pay4 (View.ld x0 rect0) (View.ld x1 rect1) (View.ld x2 rect2) (View.ld x3 rect3) (View.ld x4 rect4) (View.ld x7 rect7) (View.ld x5 rect5))
    (k0_pay5 (View.ld x0 rect0) (View.ld x1 rect1) (View.ld x2 rect2) (View.ld x3 rect3) (View.ld x4 rect4) (View.ld x7 rect7) (View.ld x5 rect5) (View.ld x6 rect6))
    (k0_pay6 (F := F))⟩]

/-- The one store covers the buffer. -/
theorem cover_out (p0 : Vec F S256x1024 .f32) (y : S256x1024.Idx) :
    ∃ pc ∈ ([⟨rect8, p0⟩] : List (View.Piece (Elt F) S256x1024 .f32)), y ∈ pc.1.set :=
  View.cover_of_tiled [⟨rect8, p0⟩] S256x1024.size (by rfl) y

/-! ## The body's triple -/

set_option maxHeartbeats 4000000 in
/-- On whole staging memrefs, the inputs' at contents `xW` and the output's at anything, the body runs to the
    continuation with the inputs' as they were and the output's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S3072x1024 .bf16) (harg4 : arg4.IsWhole) (arg5 : Memref sig .tc .vmem S3072x2048 .bf16) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1x3072 .f32) (harg8 : arg8.IsWhole) (arg9 : Memref sig .tc .vmem S256x1024 .f32) (harg9 : arg9.IsWhole)
    (x0 : Vec F S256x1024 .f32) (x1 : Vec F S256x1024 .f32) (x2 : Vec F S256x2048 .f32) (x3 : Vec F S3072x1024 .bf16) (x4 : Vec F S3072x2048 .bf16) (x5 : Vec F S2048x1024 .bf16) (x6 : Vec F S1024x1024 .bf16) (x7 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__decoder_cell_kernel i arg1 harg1 arg2 harg2 arg3 harg3 arg4 harg4 arg5 harg5 arg6 harg6 arg7 harg7 arg8 harg8 arg9 harg9) K := by
  simp only [cc0__decoder_cell_kernel_eq_skeleton]; unfold cc0__decoder_cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The pipeline's proof data -/

/-- The arrays as the call finds them; after the body at point `t` each input's buffer at its block and the
    output's at `outBlock` of the input blocks; the pipeline owns nothing beyond its windows, owes nothing, and
    holds full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so the body's triple applies; what the
    pipeline owns besides passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has each array of the pipeline at what the proof data computes and every other unscoped buffer as the call
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frame

end
-- ==== Proof.CellSpec.lean ====
/-
  The gated recurrent cell as ONE function of its fifteen argument arrays, entry by entry, on the extended reals.

  With x : [8192,1024] the input, h : [8192,1024] the previous state, c : [8192,2048] the context, a weight
  matrix W : [1024,K] applied as a·Wᵀ (row p of a against row q of W), and b a bias vector:

    r = σ(x·Wrᵀ + h·Urᵀ + c·Crᵀ + br)            (reset gate)
    z = σ(x·Wzᵀ + h·Uzᵀ + c·Czᵀ + bz)            (update gate)
    n = tanh(x·Whᵀ + (r ⊙ h)·Uhᵀ + c·Chᵀ + bh)   (candidate state)
    out = z ⊙ n + (1 − z) ⊙ h

  where σ(v) = 1 / (1 + e^(−v)). Nothing here mentions a program: only the operations of the ideal instance.
-/
import Idealize.ShloMosaic.PureOps.Ideal
import Idealize.ShloMosaic.Lib.ValueIdx
import Idealize.ShloMosaic.Lib.IdealHost

noncomputable section

namespace Cert.GatedCell

open Idealize.ShloMosaic Idealize.ShloMosaic.ValueIdx

/-- The argument shapes: batch × hidden, batch × context, hidden × hidden, hidden × context, hidden. -/
abbrev SBH : Shape := ⟨2, ![8192, 1024]⟩
abbrev SBC : Shape := ⟨2, ![8192, 2048]⟩
abbrev SHH : Shape := ⟨2, ![1024, 1024]⟩
abbrev SHC : Shape := ⟨2, ![1024, 2048]⟩
abbrev SH : Shape := ⟨1, ![1024]⟩

/-- Entry (p, q) of a·wᵀ: row p of `a` against row q of `w`. -/
def rowDot {A B K : Nat} (a : (⟨2, ![A, K]⟩ : Shape).Idx → EReal) (w : (⟨2, ![B, K]⟩ : Shape).Idx → EReal)
    (p : Fin A) (q : Fin B) : EReal :=
  ∑ k : Fin K, a (ix2 p k) * w (ix2 q k)

/-- The number one, as the f32 word both programs spell it with. -/
def one : EReal := Ideal.ofBits .f32 0x3F800000#32

theorem one_eq : one = 1 := Ideal.ofBits_one_f32

/-- The logistic function 1 / (1 + e^(−v)), with the ideal instance's division and exponential. -/
def sigm (v : EReal) : EReal := Ideal.div one (one + Ideal.exp (-v))

/-- It is the ideal instance's own logistic function. -/
theorem sigm_eq_logistic (v : EReal) : sigm v = Ideal.logistic v := by
  unfold sigm Ideal.logistic
  rw [one_eq]

/-- A gate's entry (p, q): σ of the three products' entries and the bias, summed left to right. -/
def gate (x h : SBH.Idx → EReal) (c : SBC.Idx → EReal) (W U : SHH.Idx → EReal) (C : SHC.Idx → EReal)
    (b : SH.Idx → EReal) (p : Fin 8192) (q : Fin 1024) : EReal :=
  sigm (rowDot x W p q + rowDot h U p q + rowDot c C p q + b (ix1 q))

/-- The candidate state's entry (p, q): the reset gate `r` scales the previous state inside the middle product. -/
def cand (x h : SBH.Idx → EReal) (c : SBC.Idx → EReal) (r : Fin 8192 → Fin 1024 → EReal)
    (W U : SHH.Idx → EReal) (C : SHC.Idx → EReal) (b : SH.Idx → EReal) (p : Fin 8192) (q : Fin 1024) : EReal :=
  Ideal.tanh (rowDot x W p q + (∑ k : Fin 1024, (r p k * h (ix2 p k)) * U (ix2 q k)) + rowDot c C p q + b (ix1 q))

/-- The new state's entry (p, q), from the arguments in the programs' order:
    x, h, c, Wh, Wz, Wr, Uh, Uz, Ur, Ch, Cz, Cr, bh, bz, br. -/
def cellAt (x h : SBH.Idx → EReal) (c : SBC.Idx → EReal) (Wh Wz Wr Uh Uz Ur : SHH.Idx → EReal)
    (Ch Cz Cr : SHC.Idx → EReal) (bh bz br : SH.Idx → EReal) (p : Fin 8192) (q : Fin 1024) : EReal :=
  gate x h c Wz Uz Cz bz p q * cand x h c (gate x h c Wr Ur Cr br) Wh Uh Ch bh p q
    + (one - gate x h c Wz Uz Cz bz p q) * h (ix2 p q)

/-- The new state as an array. -/
def cell (x h : SBH.Idx → EReal) (c : SBC.Idx → EReal) (Wh Wz Wr Uh Uz Ur : SHH.Idx → EReal)
    (Ch Cz Cr : SHC.Idx → EReal) (bh bz br : SH.Idx → EReal) : SBH.Idx → EReal :=
  fun i => cellAt x h c Wh Wz Wr Uh Uz Ur Ch Cz Cr bh bz br (i 0) (i 1)

theorem cell_ix2 (x h : SBH.Idx → EReal) (c : SBC.Idx → EReal) (Wh Wz Wr Uh Uz Ur : SHH.Idx → EReal)
    (Ch Cz Cr : SHC.Idx → EReal) (bh bz br : SH.Idx → EReal) (p : Fin 8192) (q : Fin 1024) :
    cell x h c Wh Wz Wr Uh Uz Ur Ch Cz Cr bh bz br (ix2 p q)
      = cellAt x h c Wh Wz Wr Uh Uz Ur Ch Cz Cr bh bz br p q := rfl

/-- The two orders in which the four terms of a gate are added agree: addition of extended reals is
    commutative and associative (no finiteness is needed). -/
theorem sum_order (A B C b : EReal) : A + C + b + B = A + B + C + b := by
  rw [add_assoc (A + C) b B, add_comm b B, ← add_assoc (A + C) B b, add_right_comm A C B]

end Cert.GatedCell

end
-- ==== Proof.FusedCell.lean ====
/-
  The cell as the kernel arranges it, one row at a time, and why it is the same function.

  Row p of the new state depends on row p of x, h and c only. The kernel stacks the gate weights by rows,
    Wall = [Wr; Wz; Wh] : [3072,1024],  Call = [Cr; Cz; Ch] : [3072,2048],  Urz = [Ur; Uz] : [2048,1024],
    ball = [br, bz, bh] : [1,3072],
  forms wc = x·Wallᵀ + c·Callᵀ + ball (three gates' worth of columns at once) and rz = h·Urzᵀ, and reads the gates
  off column ranges: columns [0,1024) for r, [1024,2048) for z, [2048,3072) for the candidate. Column q of a range
  starting at o is row o + q of the stacked matrix, which is row q of the matrix stacked there; so each gate's
  pre-activation is the specification's four terms added in another order, and addition of extended reals is
  commutative and associative.
-/
import proofs.«115858_j7550552506831_2_alg».proof.Proof.CellSpec

noncomputable section

namespace Cert.GatedCell

open Idealize.ShloMosaic Idealize.ShloMosaic.ValueIdx

/-- The stacked shapes. -/
abbrev SW3 : Shape := ⟨2, ![3072, 1024]⟩
abbrev SC3 : Shape := ⟨2, ![3072, 2048]⟩
abbrev SU2 : Shape := ⟨2, ![2048, 1024]⟩
abbrev SB3 : Shape := ⟨2, ![1, 3072]⟩

/-- Column q of the range starting at `o`, as a column of a wider array. -/
abbrev colAt (n o : Nat) (q : Fin 1024) (h : o + 1024 ≤ n) : Fin n := ⟨o + q.val, by have := q.isLt; omega⟩

/-- Entry j of x·Wallᵀ + c·Callᵀ + ball along one row. -/
def wcRow (xr : Fin 1024 → EReal) (cr : Fin 2048 → EReal) (Wall : SW3.Idx → EReal) (Call : SC3.Idx → EReal)
    (ball : SB3.Idx → EReal) (j : Fin 3072) : EReal :=
  (∑ k : Fin 1024, xr k * Wall (ix2 j k)) + (∑ k : Fin 2048, cr k * Call (ix2 j k)) + ball (ix2 (0 : Fin 1) j)

/-- Entry j of h·Urzᵀ along one row. -/
def rzRow (hr : Fin 1024 → EReal) (Urz : SU2.Idx → EReal) (j : Fin 2048) : EReal :=
  ∑ k : Fin 1024, hr k * Urz (ix2 j k)

/-- The reset gate along one row, from the first column range. -/
def rRow (xr hr : Fin 1024 → EReal) (cr : Fin 2048 → EReal) (Wall : SW3.Idx → EReal) (Call : SC3.Idx → EReal)
    (Urz : SU2.Idx → EReal) (ball : SB3.Idx → EReal) (k : Fin 1024) : EReal :=
  Ideal.logistic (wcRow xr cr Wall Call ball (colAt 3072 0 k (by omega)) + rzRow hr Urz (colAt 2048 0 k (by omega)))

/-- The update gate along one row, from the second column range. -/
def zRow (xr hr : Fin 1024 → EReal) (cr : Fin 2048 → EReal) (Wall : SW3.Idx → EReal) (Call : SC3.Idx → EReal)
    (Urz : SU2.Idx → EReal) (ball : SB3.Idx → EReal) (q : Fin 1024) : EReal :=
  Ideal.logistic (wcRow xr cr Wall Call ball (colAt 3072 1024 q (by omega)) + rzRow hr Urz (colAt 2048 1024 q (by omega)))

/-- The candidate along one row, from the third column range and the product of the gated state with Uh. -/
def nRow (xr hr : Fin 1024 → EReal) (cr : Fin 2048 → EReal) (Wall : SW3.Idx → EReal) (Call : SC3.Idx → EReal)
    (Urz : SU2.Idx → EReal) (Uh : SHH.Idx → EReal) (ball : SB3.Idx → EReal) (q : Fin 1024) : EReal :=
  Ideal.tanh (wcRow xr cr Wall Call ball (colAt 3072 2048 q (by omega))
    + ∑ k : Fin 1024, (rRow xr hr cr Wall Call Urz ball k * hr k) * Uh (ix2 q k))

/-- Entry q of the new state's row, as the kernel computes it. -/
def fusedRow (xr hr : Fin 1024 → EReal) (cr : Fin 2048 → EReal) (Wall : SW3.Idx → EReal) (Call : SC3.Idx → EReal)
    (Urz : SU2.Idx → EReal) (Uh : SHH.Idx → EReal) (ball : SB3.Idx → EReal) (q : Fin 1024) : EReal :=
  zRow xr hr cr Wall Call Urz ball q * nRow xr hr cr Wall Call Urz Uh ball q
    + (one - zRow xr hr cr Wall Call Urz ball q) * hr q

section Law

variable (x h : SBH.Idx → EReal) (c : SBC.Idx → EReal) (Wh Wz Wr Uh Uz Ur : SHH.Idx → EReal)
  (Ch Cz Cr : SHC.Idx → EReal) (bh bz br : SH.Idx → EReal)
  (Wall : SW3.Idx → EReal) (Call : SC3.Idx → EReal) (Urz : SU2.Idx → EReal) (ball : SB3.Idx → EReal)

/-- One stacked pre-activation is the gate's three terms that do not involve h, in the kernel's order. -/
theorem wcRow_stacked (W : SHH.Idx → EReal) (C : SHC.Idx → EReal) (b : SH.Idx → EReal) (o : Nat) (ho : o + 1024 ≤ 3072)
    (hW : ∀ (q k : Fin 1024), Wall (ix2 (colAt 3072 o q ho) k) = W (ix2 q k))
    (hC : ∀ (q : Fin 1024) (k : Fin 2048), Call (ix2 (colAt 3072 o q ho) k) = C (ix2 q k))
    (hb : ∀ q : Fin 1024, ball (ix2 (0 : Fin 1) (colAt 3072 o q ho)) = b (ix1 q))
    (p : Fin 8192) (q : Fin 1024) :
    wcRow (fun k => x (ix2 p k)) (fun k => c (ix2 p k)) Wall Call ball (colAt 3072 o q ho)
      = rowDot x W p q + rowDot c C p q + b (ix1 q) := by
  unfold wcRow rowDot
  rw [hb q]
  congr 2
  · exact Finset.sum_congr rfl fun k _ => by rw [hW q k]
  · exact Finset.sum_congr rfl fun k _ => by rw [hC q k]

/-- One stacked h-product is the gate's h term. -/
theorem rzRow_stacked (U : SHH.Idx → EReal) (o : Nat) (ho : o + 1024 ≤ 2048)
    (hU : ∀ (q k : Fin 1024), Urz (ix2 (colAt 2048 o q ho) k) = U (ix2 q k)) (p : Fin 8192) (q : Fin 1024) :
    rzRow (fun k => h (ix2 p k)) Urz (colAt 2048 o q ho) = rowDot h U p q := by
  unfold rzRow rowDot
  exact Finset.sum_congr rfl fun k _ => by rw [hU q k]

/-- THE LAW: when the stacked arrays hold the gate arrays in their row (or column) ranges, the kernel's row
    function at row p of x, h, c is the specification's entry (p, q). -/
theorem fusedRow_eq_cellAt
    (hWr : ∀ (q k : Fin 1024), Wall (ix2 (colAt 3072 0 q (by omega)) k) = Wr (ix2 q k))
    (hWz : ∀ (q k : Fin 1024), Wall (ix2 (colAt 3072 1024 q (by omega)) k) = Wz (ix2 q k))
    (hWh : ∀ (q k : Fin 1024), Wall (ix2 (colAt 3072 2048 q (by omega)) k) = Wh (ix2 q k))
    (hCr : ∀ (q : Fin 1024) (k : Fin 2048), Call (ix2 (colAt 3072 0 q (by omega)) k) = Cr (ix2 q k))
    (hCz : ∀ (q : Fin 1024) (k : Fin 2048), Call (ix2 (colAt 3072 1024 q (by omega)) k) = Cz (ix2 q k))
    (hCh : ∀ (q : Fin 1024) (k : Fin 2048), Call (ix2 (colAt 3072 2048 q (by omega)) k) = Ch (ix2 q k))
    (hUr : ∀ (q k : Fin 1024), Urz (ix2 (colAt 2048 0 q (by omega)) k) = Ur (ix2 q k))
    (hUz : ∀ (q k : Fin 1024), Urz (ix2 (colAt 2048 1024 q (by omega)) k) = Uz (ix2 q k))
    (hbr : ∀ q : Fin 1024, ball (ix2 (0 : Fin 1) (colAt 3072 0 q (by omega))) = br (ix1 q))
    (hbz : ∀ q : Fin 1024, ball (ix2 (0 : Fin 1) (colAt 3072 1024 q (by omega))) = bz (ix1 q))
    (hbh : ∀ q : Fin 1024, ball (ix2 (0 : Fin 1) (colAt 3072 2048 q (by omega))) = bh (ix1 q))
    (p : Fin 8192) (q : Fin 1024) :
    fusedRow (fun k => x (ix2 p k)) (fun k => h (ix2 p k)) (fun k => c (ix2 p k)) Wall Call Urz Uh ball q
      = cellAt x h c Wh Wz Wr Uh Uz Ur Ch Cz Cr bh bz br p q := by
  have hr : ∀ k : Fin 1024,
      rRow (fun k => x (ix2 p k)) (fun k => h (ix2 p k)) (fun k => c (ix2 p k)) Wall Call Urz ball k
        = gate x h c Wr Ur Cr br p k := fun k => by
    unfold rRow gate
    rw [wcRow_stacked x c Wall Call ball Wr Cr br 0 (by omega) hWr hCr hbr p k,
      rzRow_stacked h Urz Ur 0 (by omega) hUr p k, sum_order, sigm_eq_logistic]
  have hz : zRow (fun k => x (ix2 p k)) (fun k => h (ix2 p k)) (fun k => c (ix2 p k)) Wall Call Urz ball q
      = gate x h c Wz Uz Cz bz p q := by
    unfold zRow gate
    rw [wcRow_stacked x c Wall Call ball Wz Cz bz 1024 (by omega) hWz hCz hbz p q,
      rzRow_stacked h Urz Uz 1024 (by omega) hUz p q, sum_order, sigm_eq_logistic]
  have hn : nRow (fun k => x (ix2 p k)) (fun k => h (ix2 p k)) (fun k => c (ix2 p k)) Wall Call Urz Uh ball q
      = cand x h c (gate x h c Wr Ur Cr br) Wh Uh Ch bh p q := by
    unfold nRow cand
    rw [wcRow_stacked x c Wall Call ball Wh Ch bh 2048 (by omega) hWh hCh hbh p q, sum_order]
    congr 4
    exact Finset.sum_congr rfl fun k _ => by rw [hr k]
  unfold fusedRow cellAt
  rw [hz, hn]

end Law

end Cert.GatedCell

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«115858_j7550552506831_2_alg».proof.Proof.LibPlainDot
import proofs.«115858_j7550552506831_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.KernelBlock.lean ====
/-
  What the kernel's body stores, entry by entry, at the ideal instance.

  The body's arithmetic is one pure term of the eight loaded blocks (the skeleton's payloads). Read at entry (a, q)
  of the output block: changes of float format are the identity; each of the four matrix products contracts the
  LAST axis of both operands into a zero accumulator, so its entry is the plain sum along a row of each; a slice of
  columns [o, o+1024) read at column q is the operand at column o + q; the bias row [1,3072] is repeated down the
  256 rows. What comes out is `fusedRow` (the row function of the stacked arrangement) at row a of the streamed blocks.
-/
import proofs.«115858_j7550552506831_2_alg».proof.Proof.Gen.KernelIdeal.Skeleton
import proofs.«115858_j7550552506831_2_alg».proof.Proof.FusedCell
import proofs.«115858_j7550552506831_2_alg».proof.Proof.LibZeroAccDots
import Idealize.ShloMosaic.Lib.ValueLayout
import Idealize.ShloMosaic.Lib.Pipeline.Value

noncomputable section

namespace Cert.KernelIdeal.Block

open Cert.KernelIdeal Cert.KernelIdeal.Gen Cert.GatedCell
open Idealize.ShloMosaic Idealize.ShloMosaic.ValueIdx

variable (x0 x1 : FVec Ideal S256x1024 .f32) (x2 : FVec Ideal S256x2048 .f32) (x3 : FVec Ideal S3072x1024 .bf16)
  (x4 : FVec Ideal S3072x2048 .bf16) (x5 : FVec Ideal S2048x1024 .bf16) (x6 : FVec Ideal S1024x1024 .bf16)
  (x7 : FVec Ideal S1x3072 .f32)

/-- The logistic function and the hyperbolic tangent act entry by entry. -/
theorem logistic_at {s : Shape} {φ : FTy} (u : FVec Ideal s φ) (i : s.Idx) : logistic u i = Ideal.logistic (u i) := rfl
theorem tanh_at {s : Shape} {φ : FTy} (u : FVec Ideal s φ) (i : s.Idx) : tanh u i = Ideal.tanh (u i) := rfl

/-- Entry (a, j) of x·Wallᵀ + c·Callᵀ + ball on one block of rows: two products with a stacked matrix, each the
    plain sum along row a of the left block and row j of the stacked matrix, and the bias row repeated down the rows. -/
theorem wc_at (a : Fin 256) (j : Fin 3072) :
    k0_pay2 (F := Ideal) x0 x2 x3 x4 x7 (ix2 a j)
      = wcRow (fun k => x0 (ix2 a k)) (fun k => x2 (ix2 a k)) x3 x4 x7 j := by
  unfold k0_pay2 wcRow
  simp only [addf_apply, Ideal.addf_def, shapeCast_self]
  refine congrArg₂ (· + ·) (congrArg₂ (· + ·) ?_ ?_) ?_
  · exact Cert.ZeroAccDots.rows_rows _ rfl rfl rfl rfl rfl rfl rfl rfl none _ _ a j
  · exact Cert.ZeroAccDots.rows_rows _ rfl rfl rfl rfl rfl rfl rfl rfl none _ _ a j
  · exact broadcastTo_1b_ab_apply x7 _ a j

/-- Entry (a, j) of h·Urzᵀ on one block of rows. -/
theorem rz_at (a : Fin 256) (j : Fin 2048) :
    k0_pay3 (F := Ideal) x1 x5 (ix2 a j) = rzRow (fun k => x1 (ix2 a k)) x5 j := by
  unfold k0_pay3 rzRow
  simp only [shapeCast_self]
  exact Cert.ZeroAccDots.rows_rows _ rfl rfl rfl rfl rfl rfl rfl rfl none _ _ a j

/-- The update gate's entry (a, q): the logistic function of the second column range of both products. -/
theorem z_at (a : Fin 256) (q : Fin 1024) :
    k0_pay4 (F := Ideal) x0 x1 x2 x3 x4 x7 x5 (ix2 a q)
      = zRow (fun k => x0 (ix2 a k)) (fun k => x1 (ix2 a k)) (fun k => x2 (ix2 a k)) x3 x4 x5 x7 q := by
  unfold k0_pay4 zRow
  simp only [logistic_at, addf_apply, slice2_axis1_eq, wc_at, rz_at]

/-- The reset gate's entry (a, k), inside the candidate: the first column range. -/
theorem r_at (a : Fin 256) (k : Fin 1024) :
    logistic (addf (extractStridedSlice S256x1024 ![0, 0] (k0_pay2 (F := Ideal) x0 x2 x3 x4 x7) slices_S256x3072_o0_0_S256x1024)
        (extractStridedSlice S256x1024 ![0, 0] (k0_pay3 (F := Ideal) x1 x5) slices_S256x2048_o0_0_S256x1024)) (ix2 a k)
      = rRow (fun k => x0 (ix2 a k)) (fun k => x1 (ix2 a k)) (fun k => x2 (ix2 a k)) x3 x4 x5 x7 k := by
  unfold rRow
  simp only [logistic_at, addf_apply, slice2_axis1_eq, wc_at, rz_at]

/-- The gated candidate times the update gate, entry (a, q): the third column range plus the product of the gated
    previous state with Uh, through tanh, times z. -/
theorem zn_at (a : Fin 256) (q : Fin 1024) :
    k0_pay5 (F := Ideal) x0 x1 x2 x3 x4 x7 x5 x6 (ix2 a q)
      = zRow (fun k => x0 (ix2 a k)) (fun k => x1 (ix2 a k)) (fun k => x2 (ix2 a k)) x3 x4 x5 x7 q
        * nRow (fun k => x0 (ix2 a k)) (fun k => x1 (ix2 a k)) (fun k => x2 (ix2 a k)) x3 x4 x5 x6 x7 q := by
  unfold k0_pay5 nRow
  simp only [mulf_apply, tanh_at, addf_apply, shapeCast_self, z_at]
  refine congrArg (_ * ·) (congrArg Ideal.tanh (congrArg₂ (· + ·) ?_ ?_))
  · rw [slice2_axis1_eq, wc_at]
  · refine (Cert.ZeroAccDots.rows_rows _ rfl rfl rfl rfl rfl rfl rfl rfl none _ _ a q).trans ?_
    refine Finset.sum_congr rfl fun k _ => ?_
    rw [truncf_apply, mulf_apply, r_at]

/-- THE BLOCK'S ENTRY: what the body stores at (a, q) of the output block is the kernel's row function of row a of
    the three streamed blocks and of the five stacked arrays. -/
theorem stored_at (a : Fin 256) (q : Fin 1024) :
    k0_pay1 (F := Ideal) x1 (k0_pay4 x0 x1 x2 x3 x4 x7 x5) (k0_pay5 x0 x1 x2 x3 x4 x7 x5 x6) (k0_pay6 (F := Ideal)) (ix2 a q)
      = fusedRow (fun k => x0 (ix2 a k)) (fun k => x1 (ix2 a k)) (fun k => x2 (ix2 a k)) x3 x4 x5 x6 x7 q := by
  unfold k0_pay1 fusedRow k0_pay6
  simp only [addf_apply, mulf_apply, subf_apply, z_at, zn_at]
  rfl

end Cert.KernelIdeal.Block

end
-- ==== Proof.BlockReads.lean ====
/-
  Which entries of the arrays a grid point's blocks are.

  The grid has 32 points. The three streamed windows (x, h, c) and the output window move with the point along the
  rows: block index (t, 0), so row a of the block at point t is row 256·t + a of the array. The five stacked weight
  and bias arrays have block index (0, 0) at every point and a block as large as the array: the block IS the array.
-/
import proofs.«115858_j7550552506831_2_alg».proof.Proof.FrameIdeal
import Idealize.ShloMosaic.Lib.Pipeline.Value
import Idealize.ShloMosaic.Lib.ValueIdx

noncomputable section

namespace Cert.KernelIdeal.Blocks

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ)

/-- The printed index maps, decided over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 32 := Nat.lt_of_lt_of_le t.isLt (Nat.le_of_eq N_0)

/-- The array row that row a of a block at point t is. -/
def rowOf (t : Fin cfg0.N) (a : Fin 256) : Fin 8192 := ⟨256 * t.val + a.val, by have := point_lt t; have := a.isLt; omega⟩

/-- Row a of window 0's block at point `t` is row 256·t + a of argument 0. -/
theorem streamed0_at (c : Dev nD) (t : Fin cfg0.N) (a : Fin 256) (k : Fin 1024) :
    (iblk m c 0 t : Vec Ideal S256x1024 .f32) (ix2 a k)
      = (m ((c : Thread nD τ).loc main_arg0) : S8192x1024.Idx → EReal) (ix2 (rowOf t a) k) := by
  obtain ⟨h0, h1, -⟩ := idx_facts t
  unfold iblk
  rw [View.read_apply]
  show V m c main_arg0 _ = _
  rw [V_main_arg0]
  refine congrArg _ (funext fun b => Fin.ext ?_)
  match b with
  | ⟨0, _⟩ => show win0_0.index t 0 * 256 + 1 * a.val = 256 * t.val + a.val; rw [h0]; omega
  | ⟨1, _⟩ => show win0_0.index t 1 * 1024 + 1 * k.val = k.val; rw [h1]; omega

/-- Row a of window 1's block at point `t` is row 256·t + a of argument 1. -/
theorem streamed1_at (c : Dev nD) (t : Fin cfg0.N) (a : Fin 256) (k : Fin 1024) :
    (iblk m c 1 t : Vec Ideal S256x1024 .f32) (ix2 a k)
      = (m ((c : Thread nD τ).loc main_arg1) : S8192x1024.Idx → EReal) (ix2 (rowOf t a) k) := by
  obtain ⟨-, -, h0, h1, -⟩ := idx_facts t
  unfold iblk
  rw [View.read_apply]
  show V m c main_arg1 _ = _
  rw [V_main_arg1]
  refine congrArg _ (funext fun b => Fin.ext ?_)
  match b with
  | ⟨0, _⟩ => show win0_1.index t 0 * 256 + 1 * a.val = 256 * t.val + a.val; rw [h0]; omega
  | ⟨1, _⟩ => show win0_1.index t 1 * 1024 + 1 * k.val = k.val; rw [h1]; omega

/-- Row a of window 2's block at point `t` is row 256·t + a of argument 2. -/
theorem streamed2_at (c : Dev nD) (t : Fin cfg0.N) (a : Fin 256) (k : Fin 2048) :
    (iblk m c 2 t : Vec Ideal S256x2048 .f32) (ix2 a k)
      = (m ((c : Thread nD τ).loc main_arg2) : S8192x2048.Idx → EReal) (ix2 (rowOf t a) k) := by
  obtain ⟨-, -, -, -, h0, h1, -⟩ := idx_facts t
  unfold iblk
  rw [View.read_apply]
  show V m c main_arg2 _ = _
  rw [V_main_arg2]
  refine congrArg _ (funext fun b => Fin.ext ?_)
  match b with
  | ⟨0, _⟩ => show win0_2.index t 0 * 256 + 1 * a.val = 256 * t.val + a.val; rw [h0]; omega
  | ⟨1, _⟩ => show win0_2.index t 1 * 2048 + 1 * k.val = k.val; rw [h1]; omega

/-- Window 3's block is its whole array at every point. -/
theorem resident3_eq (c : Dev nD) (t : Fin cfg0.N) :
    (iblk m c 3 t : Vec Ideal S3072x1024 .bf16) = (V m c main_v1 : S3072x1024.Idx → EReal) := by
  obtain ⟨-, -, -, -, -, -, -, -, h0, h1, -⟩ := idx_facts t
  funext y
  unfold iblk
  rw [View.read_apply]
  show V m c main_v1 _ = _
  refine congrArg _ (funext fun b => Fin.ext ?_)
  match b with
  | ⟨0, _⟩ => show win0_3.index t 0 * 3072 + 1 * (y 0).val = (y 0).val; rw [h0]; omega
  | ⟨1, _⟩ => show win0_3.index t 1 * 1024 + 1 * (y 1).val = (y 1).val; rw [h1]; omega

/-- Window 4's block is its whole array at every point. -/
theorem resident4_eq (c : Dev nD) (t : Fin cfg0.N) :
    (iblk m c 4 t : Vec Ideal S3072x2048 .bf16) = (V m c main_v3 : S3072x2048.Idx → EReal) := by
  obtain ⟨-, -, -, -, -, -, -, -, -, -, h0, h1, -⟩ := idx_facts t
  funext y
  unfold iblk
  rw [View.read_apply]
  show V m c main_v3 _ = _
  refine congrArg _ (funext fun b => Fin.ext ?_)
  match b with
  | ⟨0, _⟩ => show win0_4.index t 0 * 3072 + 1 * (y 0).val = (y 0).val; rw [h0]; omega
  | ⟨1, _⟩ => show win0_4.index t 1 * 2048 + 1 * (y 1).val = (y 1).val; rw [h1]; omega

/-- Window 5's block is its whole array at every point. -/
theorem resident5_eq (c : Dev nD) (t : Fin cfg0.N) :
    (iblk m c 5 t : Vec Ideal S2048x1024 .bf16) = (V m c main_v5 : S2048x1024.Idx → EReal) := by
  obtain ⟨-, -, -, -, -, -, -, -, -, -, -, -, h0, h1, -⟩ := idx_facts t
  funext y
  unfold iblk
  rw [View.read_apply]
  show V m c main_v5 _ = _
  refine congrArg _ (funext fun b => Fin.ext ?_)
  match b with
  | ⟨0, _⟩ => show win0_5.index t 0 * 2048 + 1 * (y 0).val = (y 0).val; rw [h0]; omega
  | ⟨1, _⟩ => show win0_5.index t 1 * 1024 + 1 * (y 1).val = (y 1).val; rw [h1]; omega

/-- Window 6's block is its whole array at every point. -/
theorem resident6_eq (c : Dev nD) (t : Fin cfg0.N) :
    (iblk m c 6 t : Vec Ideal S1024x1024 .bf16) = (V m c main_v6 : S1024x1024.Idx → EReal) := by
  obtain ⟨-, -, -, -, -, -, -, -, -, -, -, -, -, -, h0, h1, -⟩ := idx_facts t
  funext y
  unfold iblk
  rw [View.read_apply]
  show V m c main_v6 _ = _
  refine congrArg _ (funext fun b => Fin.ext ?_)
  match b with
  | ⟨0, _⟩ => show win0_6.index t 0 * 1024 + 1 * (y 0).val = (y 0).val; rw [h0]; omega
  | ⟨1, _⟩ => show win0_6.index t 1 * 1024 + 1 * (y 1).val = (y 1).val; rw [h1]; omega

/-- Window 7's block is its whole array at every point. -/
theorem resident7_eq (c : Dev nD) (t : Fin cfg0.N) :
    (iblk m c 7 t : Vec Ideal S1x3072 .f32) = (V m c main_v8 : S1x3072.Idx → EReal) := by
  obtain ⟨-, -, -, -, -, -, -, -, -, -, -, -, -, -, -, -, h0, h1⟩ := idx_facts t
  funext y
  unfold iblk
  rw [View.read_apply]
  show V m c main_v8 _ = _
  refine congrArg _ (funext fun b => Fin.ext ?_)
  match b with
  | ⟨0, _⟩ => show win0_7.index t 0 * 1 + 1 * (y 0).val = (y 0).val; rw [h0]; omega
  | ⟨1, _⟩ => show win0_7.index t 1 * 3072 + 1 * (y 1).val = (y 1).val; rw [h1]; omega

/-- Entry (a, q) of the output's block at point t is entry (256·t + a, q) of the output array. -/
theorem out_emb (t : Fin cfg0.N) (a : Fin 256) (q : Fin 1024) :
    ((cfg0.win 8).blk t).view.emb (ix2 a q) = (ix2 (rowOf t a) q : S8192x1024.Idx) := by
  obtain ⟨-, -, -, -, -, -, h0, h1, -⟩ := idx_facts t
  funext b
  apply Fin.ext
  match b with
  | ⟨0, _⟩ => show win0_8.index t 0 * 256 + 1 * a.val = 256 * t.val + a.val; rw [h0]; omega
  | ⟨1, _⟩ => show win0_8.index t 1 * 1024 + 1 * q.val = q.val; rw [h1]; omega

end Cert.KernelIdeal.Blocks

end
-- ==== Proof.KernelHost.lean ====
/-
  What the host operations before the pipelined call leave in the five stacked arrays, entry by entry.

  Before the call the program stacks the gate weights by rows, Wall = [Wr; Wz; Wh], Call = [Cr; Cz; Ch], Urz = [Ur; Uz],
  the biases end to end, ball = [br, bz, bh] viewed as one row, and changes Wall, Call, Urz and Uh to a narrower float
  format, which on the extended reals is the identity. Row o + q of a stack is row q of the array stacked at offset o,
  and entry o + q of the row of biases is entry q of the bias placed there.
-/
import proofs.«115858_j7550552506831_2_alg».proof.Proof.FrameIdeal
import proofs.«115858_j7550552506831_2_alg».proof.Proof.FusedCell
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Cert.KernelIdeal.Frame Cert.GatedCell
open Idealize.ShloMosaic Idealize.ShloMosaic.ValueIdx Idealize.ShloMosaic.TcCoe Idealize.SL.Sem
open Idealize.ShloMosaic.StableHlo

variable (m : (ℓ : Loc nD τ sig) → Buf (Elt Ideal) ℓ) (c : Dev nD)

/-! ## A stack of arrays read at a row -/

section Stack
variable {K : Nat}

/-- Row q of a stack of three [1024, K] arrays is row q of the first, -/
theorem stack3_fst (x0 x1 x2 : (⟨2, ![1024, K]⟩ : Shape).Idx → EReal)
    (h : Shape.Concatenates [(⟨2, ![1024, K]⟩ : Shape), ⟨2, ![1024, K]⟩, ⟨2, ![1024, K]⟩] ⟨2, ![3072, K]⟩ 0)
    (q : Fin 1024) (k : Fin K) :
    concatenate (⟨2, ![3072, K]⟩ : Shape) 0 [⟨⟨2, ![1024, K]⟩, x0⟩, ⟨⟨2, ![1024, K]⟩, x1⟩, ⟨⟨2, ![1024, K]⟩, x2⟩] h
        (ix2 (colAt 3072 0 q (by omega)) k) = x0 (ix2 q k) :=
  concatenate_apply_piece (t := ⟨2, ![3072, K]⟩) 0
    [⟨⟨2, ![1024, K]⟩, x0⟩, ⟨⟨2, ![1024, K]⟩, x1⟩, ⟨⟨2, ![1024, K]⟩, x2⟩] h _ 0 (by show (0 : ℕ) < 3; omega)
    ⟨2, ![1024, K]⟩ x0 rfl rfl 0 rfl (ix2 q k)
    (fun b hb => match b with
      | ⟨0, _⟩ => absurd rfl hb
      | ⟨1, _⟩ => rfl)
    (by show 0 + q.val = 0 + q.val; rfl)

/-- row 1024 + q is row q of the second, -/
theorem stack3_snd (x0 x1 x2 : (⟨2, ![1024, K]⟩ : Shape).Idx → EReal)
    (h : Shape.Concatenates [(⟨2, ![1024, K]⟩ : Shape), ⟨2, ![1024, K]⟩, ⟨2, ![1024, K]⟩] ⟨2, ![3072, K]⟩ 0)
    (q : Fin 1024) (k : Fin K) :
    concatenate (⟨2, ![3072, K]⟩ : Shape) 0 [⟨⟨2, ![1024, K]⟩, x0⟩, ⟨⟨2, ![1024, K]⟩, x1⟩, ⟨⟨2, ![1024, K]⟩, x2⟩] h
        (ix2 (colAt 3072 1024 q (by omega)) k) = x1 (ix2 q k) :=
  concatenate_apply_piece (t := ⟨2, ![3072, K]⟩) 0
    [⟨⟨2, ![1024, K]⟩, x0⟩, ⟨⟨2, ![1024, K]⟩, x1⟩, ⟨⟨2, ![1024, K]⟩, x2⟩] h _ 1 (by show (1 : ℕ) < 3; omega)
    ⟨2, ![1024, K]⟩ x1 rfl rfl 1024 rfl (ix2 q k)
    (fun b hb => match b with
      | ⟨0, _⟩ => absurd rfl hb
      | ⟨1, _⟩ => rfl)
    (by show 1024 + q.val = 1024 + q.val; rfl)

/-- and row 2048 + q is row q of the third. -/
theorem stack3_trd (x0 x1 x2 : (⟨2, ![1024, K]⟩ : Shape).Idx → EReal)
    (h : Shape.Concatenates [(⟨2, ![1024, K]⟩ : Shape), ⟨2, ![1024, K]⟩, ⟨2, ![1024, K]⟩] ⟨2, ![3072, K]⟩ 0)
    (q : Fin 1024) (k : Fin K) :
    concatenate (⟨2, ![3072, K]⟩ : Shape) 0 [⟨⟨2, ![1024, K]⟩, x0⟩, ⟨⟨2, ![1024, K]⟩, x1⟩, ⟨⟨2, ![1024, K]⟩, x2⟩] h
        (ix2 (colAt 3072 2048 q (by omega)) k) = x2 (ix2 q k) :=
  concatenate_apply_piece (t := ⟨2, ![3072, K]⟩) 0
    [⟨⟨2, ![1024, K]⟩, x0⟩, ⟨⟨2, ![1024, K]⟩, x1⟩, ⟨⟨2, ![1024, K]⟩, x2⟩] h _ 2 (by show (2 : ℕ) < 3; omega)
    ⟨2, ![1024, K]⟩ x2 rfl rfl 2048 rfl (ix2 q k)
    (fun b hb => match b with
      | ⟨0, _⟩ => absurd rfl hb
      | ⟨1, _⟩ => rfl)
    (by show 2048 + q.val = 2048 + q.val; rfl)

/-- Row q of a stack of two [1024, K] arrays is row q of the first, -/
theorem stack2_fst (x0 x1 : (⟨2, ![1024, K]⟩ : Shape).Idx → EReal)
    (h : Shape.Concatenates [(⟨2, ![1024, K]⟩ : Shape), ⟨2, ![1024, K]⟩] ⟨2, ![2048, K]⟩ 0) (q : Fin 1024) (k : Fin K) :
    concatenate (⟨2, ![2048, K]⟩ : Shape) 0 [⟨⟨2, ![1024, K]⟩, x0⟩, ⟨⟨2, ![1024, K]⟩, x1⟩] h
        (ix2 (colAt 2048 0 q (by omega)) k) = x0 (ix2 q k) :=
  concatenate_pair_apply_left (t := ⟨2, ![2048, K]⟩) 0 x0 x1 h _ rfl (ix2 q k)
    (fun b => match b with
      | ⟨0, _⟩ => (by show q.val = 0 + q.val; omega)
      | ⟨1, _⟩ => rfl)

/-- and row 1024 + q is row q of the second. -/
theorem stack2_snd (x0 x1 : (⟨2, ![1024, K]⟩ : Shape).Idx → EReal)
    (h : Shape.Concatenates [(⟨2, ![1024, K]⟩ : Shape), ⟨2, ![1024, K]⟩] ⟨2, ![2048, K]⟩ 0) (q : Fin 1024) (k : Fin K) :
    concatenate (⟨2, ![2048, K]⟩ : Shape) 0 [⟨⟨2, ![1024, K]⟩, x0⟩, ⟨⟨2, ![1024, K]⟩, x1⟩] h
        (ix2 (colAt 2048 1024 q (by omega)) k) = x1 (ix2 q k) :=
  concatenate_pair_apply_right (t := ⟨2, ![2048, K]⟩) 0 x0 x1 h _ rfl rfl (ix2 q k)
    (fun b hb => match b with
      | ⟨0, _⟩ => absurd rfl hb
      | ⟨1, _⟩ => rfl)
    (by show q.val + 1024 = 1024 + q.val; omega)

end Stack

/-! ## Three vectors end to end, read at an entry -/

/-- Entry q of three vectors of 1024 entries laid end to end is entry q of the first, -/
theorem row3_fst (x0 x1 x2 : (⟨1, ![1024]⟩ : Shape).Idx → EReal)
    (h : Shape.Concatenates [(⟨1, ![1024]⟩ : Shape), ⟨1, ![1024]⟩, ⟨1, ![1024]⟩] ⟨1, ![3072]⟩ 0) (q : Fin 1024) :
    concatenate (⟨1, ![3072]⟩ : Shape) 0 [⟨⟨1, ![1024]⟩, x0⟩, ⟨⟨1, ![1024]⟩, x1⟩, ⟨⟨1, ![1024]⟩, x2⟩] h
        (ix1 (colAt 3072 0 q (by omega))) = x0 (ix1 q) :=
  concatenate_apply_piece (t := ⟨1, ![3072]⟩) 0
    [⟨⟨1, ![1024]⟩, x0⟩, ⟨⟨1, ![1024]⟩, x1⟩, ⟨⟨1, ![1024]⟩, x2⟩] h _ 0 (by show (0 : ℕ) < 3; omega)
    ⟨1, ![1024]⟩ x0 rfl rfl 0 rfl (ix1 q)
    (fun b hb => match b with
      | ⟨0, _⟩ => absurd rfl hb)
    (by show 0 + q.val = 0 + q.val; rfl)

/-- entry 1024 + q is entry q of the second, -/
theorem row3_snd (x0 x1 x2 : (⟨1, ![1024]⟩ : Shape).Idx → EReal)
    (h : Shape.Concatenates [(⟨1, ![1024]⟩ : Shape), ⟨1, ![1024]⟩, ⟨1, ![1024]⟩] ⟨1, ![3072]⟩ 0) (q : Fin 1024) :
    concatenate (⟨1, ![3072]⟩ : Shape) 0 [⟨⟨1, ![1024]⟩, x0⟩, ⟨⟨1, ![1024]⟩, x1⟩, ⟨⟨1, ![1024]⟩, x2⟩] h
        (ix1 (colAt 3072 1024 q (by omega))) = x1 (ix1 q) :=
  concatenate_apply_piece (t := ⟨1, ![3072]⟩) 0
    [⟨⟨1, ![1024]⟩, x0⟩, ⟨⟨1, ![1024]⟩, x1⟩, ⟨⟨1, ![1024]⟩, x2⟩] h _ 1 (by show (1 : ℕ) < 3; omega)
    ⟨1, ![1024]⟩ x1 rfl rfl 1024 rfl (ix1 q)
    (fun b hb => match b with
      | ⟨0, _⟩ => absurd rfl hb)
    (by show 1024 + q.val = 1024 + q.val; rfl)

/-- and entry 2048 + q is entry q of the third. -/
theorem row3_trd (x0 x1 x2 : (⟨1, ![1024]⟩ : Shape).Idx → EReal)
    (h : Shape.Concatenates [(⟨1, ![1024]⟩ : Shape), ⟨1, ![1024]⟩, ⟨1, ![1024]⟩] ⟨1, ![3072]⟩ 0) (q : Fin 1024) :
    concatenate (⟨1, ![3072]⟩ : Shape) 0 [⟨⟨1, ![1024]⟩, x0⟩, ⟨⟨1, ![1024]⟩, x1⟩, ⟨⟨1, ![1024]⟩, x2⟩] h
        (ix1 (colAt 3072 2048 q (by omega))) = x2 (ix1 q) :=
  concatenate_apply_piece (t := ⟨1, ![3072]⟩) 0
    [⟨⟨1, ![1024]⟩, x0⟩, ⟨⟨1, ![1024]⟩, x1⟩, ⟨⟨1, ![1024]⟩, x2⟩] h _ 2 (by show (2 : ℕ) < 3; omega)
    ⟨1, ![1024]⟩ x2 rfl rfl 2048 rfl (ix1 q)
    (fun b hb => match b with
      | ⟨0, _⟩ => absurd rfl hb)
    (by show 2048 + q.val = 2048 + q.val; rfl)

/-! ## The five staged arrays as the operations' terms

A change to a narrower float format is the identity on extended reals, so it does not appear on the right. -/

/-- The stacked input weights: the three arrays stacked. -/
theorem wall_term :
    @Eq (S3072x1024.Idx → EReal) (V m c main_v1)
      (concatenate S3072x1024 0
          [⟨S1024x1024, (m ((c : Thread nD τ).loc main_arg5) : S1024x1024.Idx → EReal)⟩,
           ⟨S1024x1024, (m ((c : Thread nD τ).loc main_arg4) : S1024x1024.Idx → EReal)⟩,
           ⟨S1024x1024, (m ((c : Thread nD τ).loc main_arg3) : S1024x1024.Idx → EReal)⟩]
          concatenates_S1024x1024_S1024x1024_S1024x1024_S3072x1024_d0) := by
  dsimp only [V, hostOps0]
  after_results
  rfl

/-- The stacked context weights. -/
theorem call_term :
    @Eq (S3072x2048.Idx → EReal) (V m c main_v3)
      (concatenate S3072x2048 0
          [⟨S1024x2048, (m ((c : Thread nD τ).loc main_arg11) : S1024x2048.Idx → EReal)⟩,
           ⟨S1024x2048, (m ((c : Thread nD τ).loc main_arg10) : S1024x2048.Idx → EReal)⟩,
           ⟨S1024x2048, (m ((c : Thread nD τ).loc main_arg9) : S1024x2048.Idx → EReal)⟩]
          concatenates_S1024x2048_S1024x2048_S1024x2048_S3072x2048_d0) := by
  dsimp only [V, hostOps0]
  after_results
  rfl

/-- The stacked state weights of the two gates. -/
theorem urz_term :
    @Eq (S2048x1024.Idx → EReal) (V m c main_v5)
      (concatenate S2048x1024 0
          [⟨S1024x1024, (m ((c : Thread nD τ).loc main_arg8) : S1024x1024.Idx → EReal)⟩,
           ⟨S1024x1024, (m ((c : Thread nD τ).loc main_arg7) : S1024x1024.Idx → EReal)⟩]
          concatenates_S1024x1024_S1024x1024_S2048x1024_d0) := by
  dsimp only [V, hostOps0]
  after_results
  rfl

/-- The candidate's state weights are staged as they are. -/
theorem uh_eq : @Eq (S1024x1024.Idx → EReal) (V m c main_v6) (m ((c : Thread nD τ).loc main_arg6) : S1024x1024.Idx → EReal) := by
  dsimp only [V, hostOps0]
  after_results
  rfl

/-- The biases end to end, viewed as one row. -/
theorem ball_term :
    @Eq (S1x3072.Idx → EReal) (V m c main_v8)
      (shapeCast S1x3072 (concatenate S3072 0
          [⟨S1024, (m ((c : Thread nD τ).loc main_arg14) : S1024.Idx → EReal)⟩,
           ⟨S1024, (m ((c : Thread nD τ).loc main_arg13) : S1024.Idx → EReal)⟩,
           ⟨S1024, (m ((c : Thread nD τ).loc main_arg12) : S1024.Idx → EReal)⟩]
          concatenates_S1024_S1024_S1024_S3072_d0) shapeCasts_S3072_S1x3072) := by
  dsimp only [V, hostOps0]
  after_results
  rfl

/-! ## The staged arrays at an entry -/

/-- Row q of the stacked input weights is row q of the reset gate's, -/
theorem wall_r (q k : Fin 1024) :
    (V m c main_v1 : S3072x1024.Idx → EReal) (ix2 (colAt 3072 0 q (by omega)) k) = (m ((c : Thread nD τ).loc main_arg5) : S1024x1024.Idx → EReal) (ix2 q k) := by
  rw [wall_term]
  exact stack3_fst _ _ _ concatenates_S1024x1024_S1024x1024_S1024x1024_S3072x1024_d0 q k

/-- row 1024 + q is row q of the update gate's, -/
theorem wall_z (q k : Fin 1024) :
    (V m c main_v1 : S3072x1024.Idx → EReal) (ix2 (colAt 3072 1024 q (by omega)) k) = (m ((c : Thread nD τ).loc main_arg4) : S1024x1024.Idx → EReal) (ix2 q k) := by
  rw [wall_term]
  exact stack3_snd _ _ _ concatenates_S1024x1024_S1024x1024_S1024x1024_S3072x1024_d0 q k

/-- and row 2048 + q is row q of the candidate's. -/
theorem wall_h (q k : Fin 1024) :
    (V m c main_v1 : S3072x1024.Idx → EReal) (ix2 (colAt 3072 2048 q (by omega)) k) = (m ((c : Thread nD τ).loc main_arg3) : S1024x1024.Idx → EReal) (ix2 q k) := by
  rw [wall_term]
  exact stack3_trd _ _ _ concatenates_S1024x1024_S1024x1024_S1024x1024_S3072x1024_d0 q k

/-- Row q of the stacked context weights is row q of the reset gate's, -/
theorem call_r (q : Fin 1024) (k2 : Fin 2048) :
    (V m c main_v3 : S3072x2048.Idx → EReal) (ix2 (colAt 3072 0 q (by omega)) k2) = (m ((c : Thread nD τ).loc main_arg11) : S1024x2048.Idx → EReal) (ix2 q k2) := by
  rw [call_term]
  exact stack3_fst _ _ _ concatenates_S1024x2048_S1024x2048_S1024x2048_S3072x2048_d0 q k2

/-- row 1024 + q is row q of the update gate's, -/
theorem call_z (q : Fin 1024) (k2 : Fin 2048) :
    (V m c main_v3 : S3072x2048.Idx → EReal) (ix2 (colAt 3072 1024 q (by omega)) k2) = (m ((c : Thread nD τ).loc main_arg10) : S1024x2048.Idx → EReal) (ix2 q k2) := by
  rw [call_term]
  exact stack3_snd _ _ _ concatenates_S1024x2048_S1024x2048_S1024x2048_S3072x2048_d0 q k2

/-- and row 2048 + q is row q of the candidate's. -/
theorem call_h (q : Fin 1024) (k2 : Fin 2048) :
    (V m c main_v3 : S3072x2048.Idx → EReal) (ix2 (colAt 3072 2048 q (by omega)) k2) = (m ((c : Thread nD τ).loc main_arg9) : S1024x2048.Idx → EReal) (ix2 q k2) := by
  rw [call_term]
  exact stack3_trd _ _ _ concatenates_S1024x2048_S1024x2048_S1024x2048_S3072x2048_d0 q k2

/-- Row q of the stacked state weights is row q of the reset gate's, -/
theorem urz_r (q k : Fin 1024) :
    (V m c main_v5 : S2048x1024.Idx → EReal) (ix2 (colAt 2048 0 q (by omega)) k) = (m ((c : Thread nD τ).loc main_arg8) : S1024x1024.Idx → EReal) (ix2 q k) := by
  rw [urz_term]
  exact stack2_fst _ _ concatenates_S1024x1024_S1024x1024_S2048x1024_d0 q k

/-- and row 1024 + q is row q of the update gate's. -/
theorem urz_z (q k : Fin 1024) :
    (V m c main_v5 : S2048x1024.Idx → EReal) (ix2 (colAt 2048 1024 q (by omega)) k) = (m ((c : Thread nD τ).loc main_arg7) : S1024x1024.Idx → EReal) (ix2 q k) := by
  rw [urz_term]
  exact stack2_snd _ _ concatenates_S1024x1024_S1024x1024_S2048x1024_d0 q k

/-- Entry q of the row of biases is entry q of the reset gate's, -/
theorem ball_r (q : Fin 1024) :
    (V m c main_v8 : S1x3072.Idx → EReal) (ix2 (0 : Fin 1) (colAt 3072 0 q (by omega))) = (m ((c : Thread nD τ).loc main_arg14) : S1024.Idx → EReal) (ix1 q) := by
  rw [ball_term]
  exact (shapeCast_a_1a_apply _ shapeCasts_S3072_S1x3072 0 (colAt 3072 0 q (by omega))).trans (row3_fst _ _ _ concatenates_S1024_S1024_S1024_S3072_d0 q)

/-- entry 1024 + q is entry q of the update gate's, -/
theorem ball_z (q : Fin 1024) :
    (V m c main_v8 : S1x3072.Idx → EReal) (ix2 (0 : Fin 1) (colAt 3072 1024 q (by omega))) = (m ((c : Thread nD τ).loc main_arg13) : S1024.Idx → EReal) (ix1 q) := by
  rw [ball_term]
  exact (shapeCast_a_1a_apply _ shapeCasts_S3072_S1x3072 0 (colAt 3072 1024 q (by omega))).trans (row3_snd _ _ _ concatenates_S1024_S1024_S1024_S3072_d0 q)

/-- and entry 2048 + q is entry q of the candidate's. -/
theorem ball_h (q : Fin 1024) :
    (V m c main_v8 : S1x3072.Idx → EReal) (ix2 (0 : Fin 1) (colAt 3072 2048 q (by omega))) = (m ((c : Thread nD τ).loc main_arg12) : S1024.Idx → EReal) (ix1 q) := by
  rw [ball_term]
  exact (shapeCast_a_1a_apply _ shapeCasts_S3072_S1x3072 0 (colAt 3072 2048 q (by omega))).trans (row3_trd _ _ _ concatenates_S1024_S1024_S1024_S3072_d0 q)

end Cert.KernelIdeal.Host

end
-- ==== Proof.KernelValue.lean ====
/-
  The kernel program's result array, whole: after the run it holds the gated cell of the launch memory's arguments.

  Point t of the grid writes back the output block it computed: at entry (a, q) the kernel's row function of row a
  of the three streamed blocks and of the five stacked arrays. Row a of a streamed block at point t is row 256·t + a
  of its argument, the stacked arrays hold the gate arrays in their row or column ranges, so by the law of the
  stacked arrangement the entry is the specification's entry (256·t + a, q): each written block is a block of ONE
  whole-array function. The 32 blocks tile the rows (row r is in the block of point r / 256), so the array ends
  holding that function.
-/
import proofs.«115858_j7550552506831_2_alg».proof.Proof.FrameIdeal
import proofs.«115858_j7550552506831_2_alg».proof.Proof.KernelBlock
import proofs.«115858_j7550552506831_2_alg».proof.Proof.BlockReads
import proofs.«115858_j7550552506831_2_alg».proof.Proof.KernelHost
import Idealize.ShloMosaic.Lib.Pipeline.Value

noncomputable section

namespace Cert.KernelIdeal.Result

open Cert.KernelIdeal Cert.KernelIdeal.Gen Cert.KernelIdeal.Frame Cert.KernelIdeal.Blocks Cert.KernelIdeal.Block Cert.GatedCell
open Idealize.ShloMosaic Idealize.ShloMosaic.TcCoe Idealize.ShloMosaic.ValueIdx Idealize.SL.Sem

variable (m : (ℓ : Loc nD τ sig) → Buf (Elt Ideal) ℓ) (ρ : Dev nD → PrngReg)

theorem hz : (![0, 0] : Fin 2 → Nat) = fun _ => 0 := funext fun a => by fin_cases a <;> rfl

/-- The new state, from the arguments as launched. -/
abbrev newState (c : Dev nD) : Buf (Elt Ideal) ((c : Thread nD τ).loc main_v9) :=
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- WHAT POINT t WRITES BACK is block t of the new state. -/
theorem flushed_eq (c : Dev nD) (t : Fin cfg0.N) :
    (dats m 0 c).flushed 8 t = ((cfg0.win 8).blk t).view.read (Elt Ideal) (newState m c) := by
  show (cfg0.win 8).cut (grid0.coords t) ((dats m 0 c).after 8 t) = _
  rw [after_out]
  unfold outBlock
  rw [View.canon_unit_zero hz]
  simp only [View.ld_unit_zero (S := S256x1024) hz, View.ld_unit_zero (S := S256x2048) hz,
    View.ld_unit_zero (S := S3072x1024) hz, View.ld_unit_zero (S := S3072x2048) hz,
    View.ld_unit_zero (S := S2048x1024) hz, View.ld_unit_zero (S := S1024x1024) hz,
    View.ld_unit_zero (S := S1x3072) hz]
  funext y
  obtain ⟨a, q, rfl⟩ : ∃ (a : Fin 256) (q : Fin 1024), y = ix2 a q := ⟨y 0, y 1, eq_ix2 y⟩
  rw [View.read_apply, out_emb]
  refine (stored_at (iblk m c 0 t) (iblk m c 1 t) (iblk m c 2 t) (iblk m c 3 t) (iblk m c 4 t) (iblk m c 5 t)
    (iblk m c 6 t) (iblk m c 7 t) a q).trans ?_
  rw [show (fun k => iblk m c 0 t (ix2 a k)) = fun k => (m ((c : Thread nD τ).loc main_arg0)) (ix2 (rowOf t a) k) from funext fun k => streamed0_at m c t a k,
    show (fun k => iblk m c 1 t (ix2 a k)) = fun k => (m ((c : Thread nD τ).loc main_arg1)) (ix2 (rowOf t a) k) from funext fun k => streamed1_at m c t a k,
    show (fun k => iblk m c 2 t (ix2 a k)) = fun k => (m ((c : Thread nD τ).loc main_arg2)) (ix2 (rowOf t a) k) from funext fun k => streamed2_at m c t a k,
    resident3_eq m c t, resident4_eq m c t, resident5_eq m c t, resident6_eq m c t, resident7_eq m c t,
    Cert.KernelIdeal.Host.uh_eq m c]
  exact fusedRow_eq_cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (V m c main_v1) (V m c main_v3) (V m c main_v5) (V m c main_v8)
    (fun q k => Cert.KernelIdeal.Host.wall_r m c q k) (fun q k => Cert.KernelIdeal.Host.wall_z m c q k)
    (fun q k => Cert.KernelIdeal.Host.wall_h m c q k)
    (fun q k => Cert.KernelIdeal.Host.call_r m c q k) (fun q k => Cert.KernelIdeal.Host.call_z m c q k)
    (fun q k => Cert.KernelIdeal.Host.call_h m c q k)
    (fun q k => Cert.KernelIdeal.Host.urz_r m c q k) (fun q k => Cert.KernelIdeal.Host.urz_z m c q k)
    (fun q => Cert.KernelIdeal.Host.ball_r m c q) (fun q => Cert.KernelIdeal.Host.ball_z m c q)
    (fun q => Cert.KernelIdeal.Host.ball_h m c q) (rowOf t a) q

/-- An index of the output array is in point t's block iff each coordinate is in the block's range on its axis. -/
theorem mem_blk (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9).slice (win0_8.rect t)).set ↔ _
  rw [View.set_slice_whole, Rect.mem_set_unit]
  exact Iff.rfl

/-- Every index of the output array is in the block of SOME point: row r in the block of point r / 256. -/
theorem covered (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hlt : (i 0).val / 256 < cfg0.N := by rw [show cfg0.N = 32 from N_0]; omega
  obtain ⟨-, -, -, -, -, -, h0, h1, -⟩ := idx_facts ⟨(i 0).val / 256, hlt⟩
  refine ⟨⟨(i 0).val / 256, hlt⟩, flush0_8 _, ?_⟩
  rw [mem_blk]
  intro a
  match a with
  | ⟨0, _⟩ =>
    show win0_8.index ⟨(i 0).val / 256, hlt⟩ (0 : Fin 2) * 256 ≤ (i 0).val ∧ (i 0).val < win0_8.index ⟨(i 0).val / 256, hlt⟩ (0 : Fin 2) * 256 + 256
    rw [h0]; show (i 0).val / 256 * 256 ≤ (i 0).val ∧ (i 0).val < (i 0).val / 256 * 256 + 256; omega
  | ⟨1, _⟩ =>
    show win0_8.index ⟨(i 0).val / 256, hlt⟩ (1 : Fin 2) * 1024 ≤ (i 1).val ∧ (i 1).val < win0_8.index ⟨(i 0).val / 256, hlt⟩ (1 : Fin 2) * 1024 + 1024
    rw [h1]; omega

/-- THE ARRAY after the run is the new state. -/
theorem final (c : Dev nD) : (dats m 0 c).arrAt 8 cfg0.N = newState m c :=
  (dats m 0 c).arrAt_eq_of_cover 8 (newState m c) (fun t _ => flushed_eq m c t) (covered)

/-- The run, read: the result array at the new state of the arguments, the arguments unchanged. -/
theorem run : θ_run defs (onTc (τ := τ) (main (F := Ideal))) ⟨m, fun _ => 0, ρ⟩ (fun r => ∀ c : Dev nD,
      r.2.mem ((c.tc : Thread nD τ).loc main_v9) = newState m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Result

end
-- ==== Proof.RefStages.lean ====
/-
  The reference program's result is the gated recurrent cell of Proof/CellSpec.lean, entry by entry.

  Each stage of the reference is read at an entry (p, q). A product with a transposed weight matrix is the sum over k
  of a[p, k] · w[q, k] (row p against row q); a bias broadcast to the batch reads b[q]; a gate is the logistic
  function 1 / (1 + e^(−v)) of the three products and the bias; the candidate is tanh of the same four terms with the
  reset gate scaling the previous state inside the middle product; the result is z · n + (1 − z) · h.
-/
import proofs.«115858_j7550552506831_2_alg».proof.Proof.Gen.ReferenceIdeal.Read
import Idealize.ShloMosaic.Lib.ValueIdx
import Idealize.ShloMosaic.PureOps.Ideal.Laws
import proofs.«115858_j7550552506831_2_alg».proof.Proof.CellSpec

noncomputable section

namespace Cert.ReferenceIdeal.RefValue

open Cert.ReferenceIdeal Cert.ReferenceIdeal.Gen Cert.ReferenceIdeal.Read Cert.GatedCell
open Idealize.ShloMosaic Idealize.ShloMosaic.ValueIdx

/-- Arrays of the five argument shapes, on the extended reals. -/
abbrev ABH := (⟨S8192x1024, .f32⟩ : BufTy).Contents (Elt Ideal)
abbrev ABC := (⟨S8192x2048, .f32⟩ : BufTy).Contents (Elt Ideal)
abbrev AHH := (⟨S1024x1024, .f32⟩ : BufTy).Contents (Elt Ideal)
abbrev AHC := (⟨S1024x2048, .f32⟩ : BufTy).Contents (Elt Ideal)
abbrev AH := (⟨S1024, .f32⟩ : BufTy).Contents (Elt Ideal)

/-! ## A product with a transposed weight matrix, at an entry -/

/-- Entry (p, q) of a · wᵀ for a hidden × hidden weight: row p of `a` against row q of `w`. -/
theorem dotHH_at (a : ABH) (w : AHH) (p : Fin 8192) (q : Fin 1024) :
    val_main_v1 (F := Ideal) a w (ix2 p q) = rowDot a w p q := by
  refine (val_main_v1_apply a w (ix2 p q)).trans (Finset.sum_congr rfl fun k _ => ?_)
  rw [val_main_v0_apply]
  have el : lidx_main_v1 (ix2 p q) k = ix2 p k :=
    funext fun d => by match d with | ⟨0, _⟩ => rfl | ⟨1, _⟩ => rfl
  have er : idx_main_v0 (ridx_main_v1 (ix2 p q) k) = ix2 q k :=
    funext fun d => by match d with | ⟨0, _⟩ => rfl | ⟨1, _⟩ => rfl
  rw [el, er]

/-- Entry (p, q) of c · wᵀ for a hidden × context weight. -/
theorem dotHC_at (a : ABC) (w : AHC) (p : Fin 8192) (q : Fin 1024) :
    val_main_v6 (F := Ideal) a w (ix2 p q) = rowDot a w p q := by
  refine (val_main_v6_apply a w (ix2 p q)).trans (Finset.sum_congr rfl fun k _ => ?_)
  rw [val_main_v5_apply]
  have el : lidx_main_v6 (ix2 p q) k = ix2 p k :=
    funext fun d => by match d with | ⟨0, _⟩ => rfl | ⟨1, _⟩ => rfl
  have er : idx_main_v5 (ridx_main_v6 (ix2 p q) k) = ix2 q k :=
    funext fun d => by match d with | ⟨0, _⟩ => rfl | ⟨1, _⟩ => rfl
  rw [el, er]

/-- A bias vector broadcast along the batch reads b[q] at entry (p, q). -/
theorem bias_at (b : AH) (p : Fin 8192) (q : Fin 1024) :
    val_main_v9 (F := Ideal) b (ix2 p q) = b (ix1 q) := by
  rw [val_main_v9_apply, val_main_v8_apply]
  exact congrArg b (funext fun d => by match d with | ⟨0, _⟩ => rfl)

/-! ## A gate, the candidate, and the result at an entry -/

/-- A gate stage at entry (p, q): the logistic function of the three products' entries and the bias. -/
theorem gate_at (x h : ABH) (c : ABC) (W U : AHH) (C : AHC) (b : AH) (p : Fin 8192) (q : Fin 1024) :
    val_main_v16 (F := Ideal) x h c W U C b (ix2 p q) = gate x h c W U C b p q := by
  rw [val_main_v16_apply, val_main_v15_apply, val_main_cst_0_apply, val_main_v14_apply, val_main_v13_apply,
    val_main_cst_apply, val_main_v12_apply, val_main_v11_apply, val_main_v10_apply, val_main_v7_apply,
    val_main_v4_apply, dotHH_at, dotHC_at, bias_at]
  have e3 : val_main_v3 (F := Ideal) h U (ix2 p q) = rowDot h U p q := dotHH_at h U p q
  rw [e3]
  rfl

/-- The middle product of the candidate at entry (p, q): the reset gate scales the previous state, entry by entry,
    before the product with the transposed weight. -/
theorem mid_at (x h : ABH) (c : ABC) (Wr Uh Ur : AHH) (Cr : AHC) (br : AH) (p : Fin 8192) (q : Fin 1024) :
    val_main_v38 (F := Ideal) x h c Wr Uh Ur Cr br (ix2 p q)
      = ∑ k : Fin 1024, (gate x h c Wr Ur Cr br p k * h (ix2 p k)) * Uh (ix2 q k) := by
  refine (val_main_v38_apply x h c Wr Uh Ur Cr br (ix2 p q)).trans (Finset.sum_congr rfl fun k _ => ?_)
  have el : lidx_main_v38 (ix2 p q) k = ix2 p k :=
    funext fun d => by match d with | ⟨0, _⟩ => rfl | ⟨1, _⟩ => rfl
  have er : idx_main_v37 (ridx_main_v38 (ix2 p q) k) = ix2 q k :=
    funext fun d => by match d with | ⟨0, _⟩ => rfl | ⟨1, _⟩ => rfl
  rw [val_main_v37_apply, el, er, val_main_v36_apply, gate_at]
  rfl

/-- The candidate stage at entry (p, q): tanh of the input product, the gated middle product, the context product
    and the bias, summed left to right. -/
theorem cand_at (x h : ABH) (c : ABC) (Wh Wr Uh Ur : AHH) (Ch Cr : AHC) (bh br : AH) (p : Fin 8192) (q : Fin 1024) :
    val_main_v46 (F := Ideal) x h c Wh Wr Uh Ur Ch Cr bh br (ix2 p q)
      = cand x h c (gate x h c Wr Ur Cr br) Wh Uh Ch bh p q := by
  have e35 : val_main_v35 (F := Ideal) x Wh (ix2 p q) = rowDot x Wh p q := dotHH_at x Wh p q
  have e41 : val_main_v41 (F := Ideal) c Ch (ix2 p q) = rowDot c Ch p q := dotHC_at c Ch p q
  have e44 : val_main_v44 (F := Ideal) bh (ix2 p q) = bh (ix1 q) := bias_at bh p q
  rw [val_main_v46_apply, val_main_v45_apply, val_main_v42_apply, val_main_v39_apply, e35, e41, e44, mid_at]
  rfl

/-! ## The reference's result is the cell -/

/-- The reference's last stage, as a function of the fifteen argument arrays, is the gated recurrent cell:
    at every entry (p, q) it is z · n + (1 − z) · h with z the update gate, n the candidate state (whose middle product
    carries the reset gate) and h the previous state. -/
theorem ref_is_cell (x0 x1 : (⟨S8192x1024, .f32⟩ : BufTy).Contents (Elt Ideal)) (x2 : (⟨S8192x2048, .f32⟩ : BufTy).Contents (Elt Ideal)) (x3 x4 x5 x6 x7 x8 : (⟨S1024x1024, .f32⟩ : BufTy).Contents (Elt Ideal)) (x9 x10 x11 : (⟨S1024x2048, .f32⟩ : BufTy).Contents (Elt Ideal)) (x12 x13 x14 : (⟨S1024, .f32⟩ : BufTy).Contents (Elt Ideal)) :
    Cert.ReferenceIdeal.Read.val_main_v51 (F := Ideal) x0 x1 x2 x3 x4 x5 x6 x7 x8 x9 x10 x11 x12 x13 x14
      = Cert.GatedCell.cell x0 x1 x2 x3 x4 x5 x6 x7 x8 x9 x10 x11 x12 x13 x14 := by
  funext i
  obtain ⟨p, q, rfl⟩ : ∃ (p : Fin 8192) (q : Fin 1024), i = ix2 p q := ⟨i 0, i 1, eq_ix2 i⟩
  have ez : val_main_v33 (F := Ideal) x0 x1 x2 x4 x7 x10 x13 (ix2 p q) = gate x0 x1 x2 x4 x7 x10 x13 p q :=
    gate_at x0 x1 x2 x4 x7 x10 x13 p q
  rw [cell_ix2, val_main_v51_apply, val_main_v47_apply, val_main_v50_apply, val_main_v49_apply, val_main_v48_apply,
    val_main_cst_3_apply, cand_at, ez]
  rfl

end Cert.ReferenceIdeal.RefValue

end
-- ==== Proof.lean ====
/-
  A gated recurrent cell: a fused pipelined kernel against its jnp reference, on the extended reals.

  Both programs compute, from x, h : [8192,1024], c : [8192,2048], nine weight matrices and three biases,
    r = σ(x·Wrᵀ + h·Urᵀ + c·Crᵀ + br),  z = σ(x·Wzᵀ + h·Uzᵀ + c·Czᵀ + bz),
    n = tanh(x·Whᵀ + (r ⊙ h)·Uhᵀ + c·Chᵀ + bh),  out = z ⊙ n + (1 − z) ⊙ h.
  The reference forms each product with a transposed weight; the kernel stacks the gate weights by rows, forms
  three gates' worth of columns per product, slices the column ranges apart, and works on 32 blocks of 256 rows.

  * The three frames: each kernel program is nine host operations that write no argument and one pipelined call
    whose body loads whole blocks and stores one whole block (Proof/FrameKernel.lean, Proof/FrameIdeal.lean: the
    body's symbolic run, the launch's proof data, the launch theorem); the reference's frame is its run with the
    result dropped.
  * The idealization rewrote nothing, so there is nothing to preserve.
  * Equal results at the ideal instance: the reference's result is the specification `cell` of the arguments
    (Proof/RefStages.lean, reading the run one operation at a time); the kernel's result array is `cell` of the
    arguments too (Proof/KernelValue.lean: each written block is a block of `cell`, and the blocks tile the array;
    Proof/KernelBlock.lean reads the body's arithmetic at an entry, Proof/KernelHost.lean the stacked arrays,
    Proof/FusedCell.lean has the law joining the stacked arrangement to the specification — commutativity and
    associativity of addition only, so the finiteness of the inputs is never used). Changes of float format are
    the identity at the ideal instance and the logistic function is 1/(1 + e^(−v)) on both sides.
-/
import proofs.«115858_j7550552506831_2_alg».proof.Defs
import proofs.«115858_j7550552506831_2_alg».proof.Proof.Gen.Kernel
import proofs.«115858_j7550552506831_2_alg».proof.Proof.Gen.KernelIdeal
import proofs.«115858_j7550552506831_2_alg».proof.Proof.Gen.ReferenceIdeal
import proofs.«115858_j7550552506831_2_alg».proof.Proof.Gen.Pre_finite_inputs
import proofs.«115858_j7550552506831_2_alg».proof.Proof.Gen.ReferenceIdeal.Run
import proofs.«115858_j7550552506831_2_alg».proof.Proof.Gen.ReferenceIdeal.Read
import proofs.«115858_j7550552506831_2_alg».proof.Proof.FrameKernel
import proofs.«115858_j7550552506831_2_alg».proof.Proof.FrameIdeal
import proofs.«115858_j7550552506831_2_alg».proof.Proof.KernelValue
import proofs.«115858_j7550552506831_2_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference has no pipelined call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the fifteen arguments both programs end with the gated cell of those arguments in
    their result array. -/
theorem algebraic : Cert.algebraic_KernelIdeal_ReferenceIdeal := by
  intro m ρ m' ρ' _ hagree
  refine ⟨fun c => Cert.KernelIdeal.Result.newState m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v51_eq, Cert.ReferenceIdeal.RefValue.ref_is_cell,
    e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
